-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8191 : Shape := ⟨1, ![8191]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8191 : S_.BroadcastsInDim S8191 (![] : Fin 0 → Fin S8191.rank)
  reducesTo_S8191_S_d0 : S8191.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S8191 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8191 .f32 := Host.absf main_arg1
  let main_cst_0 : FVec F S_ .f32 := constant S_ .f32 0x7F800000#32
  let main_v5 : FVec F S8191 .f32 := broadcastInDim S8191 ![] bcast_S_S8191 main_cst_0
  let main_v6 : IVec S8191 1 := cmpf .olt main_v4 main_v5
  let main_c_1 : IVec S_ 1 := constantI S_ 1 1#1
  let main_v7 : IVec S_ 1 := (fun x v => Host.reduce IntOp.andi x v reducesTo_S8191_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S8191 : Shape := ⟨1, ![8191]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .f32⟩
  | .hbm, ⟨3, _⟩ => ⟨S8191, .bf16⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x4096, .bf16⟩
  | .hbm, ⟨17, _⟩ => ⟨S8192x4096, .bf16⟩
  | .hbm, ⟨18, _⟩ => ⟨S1x4096, .f32⟩
  | .hbm, ⟨19, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S8191_S4096x1_S4096x4096_1_n_n_n_0_1_4096_wf : GatherDims.WF S8191 S4096x1 S4096x4096 [1] [] [] [0] [] 1 ![4096]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S8191_S4096x1_S4096x4096_1_n_n_n_0_1_4096 : GatherDims S8191 S4096x1 S4096x4096 where
  offsetDims := [1]
  collapsedSliceDims := []
  operandBatchingDims := []
  startIndicesBatchingDims := []
  startIndexMap := [0]
  indexVectorDim := 1
  sliceSizes := ![4096]
  wf := gather_S8191_S4096x1_S4096x4096_1_n_n_n_0_1_4096_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S4096x4096x1 : Shape := ⟨3, ![4096, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .f32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096x1, .i32⟩
  | .hbm, ⟨21, _⟩ => ⟨S4096x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S1x4096_S8192x4096_0_1 : S1x4096.BroadcastsInDim S8192x4096 (![0, 1] : Fin 2 → Fin S8192x4096.rank)
  gather_S8191_S4096x4096x1_S4096x4096_n_0_n_n_0_2_1_wf : GatherDims.WF S8191 S4096x4096x1 S4096x4096 [] [0] [] [0] [] 2 ![1]
  dot_S8192x4096_S4096x4096_S8192x4096_1_1_0_0_n_n_wf : DotDims.WF S8192x4096 S4096x4096 S8192x4096 [1] [1] [0] [0] [] []

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BodyCases.lean ====
/-
  What one grid step leaves behind, as values.

  The grid is (batch tile, output tile, contraction tile), the contraction tile innermost. One step does
      acc ← (acc, or the zero block at contraction tile 0) + x-block · w-blockᵀ
  on the carried accumulator, and at the last contraction tile also writes out ← acc + bias row.
  The three control cases (first tile / a middle tile / last tile) each leave the accumulator, and the last one the
  output block, at the body's own arithmetic terms of the blocks they were handed.
-/
import proofs.«171036_j2173253452210_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem

namespace Cert.Toeplitz.Body

open Cert.KernelIdeal Cert.KernelIdeal.Gen

variable {F : FTy → Type} [FloatOps F]

/-- The origin of a rank-2 block. -/
theorem origin2 : (![0, 0] : Fin 2 → Nat) = fun _ => 0 := funext fun a => by fin_cases a <;> rfl

/-- One accumulation step: the accumulator block plus the product of the x block with the transposed weight block. -/
abbrev step (acc : Vec F S1024x1024 .f32) (x w : Vec F S1024x1024 .bf16) : Vec F S1024x1024 .f32 := k0_pay2 acc x w

/-- The zero block the first contraction tile starts from. -/
abbrev zeroBlock : Vec F S1024x1024 .f32 := k0_pay1 (F := F)

/-- The output block: the finished accumulator plus the bias row on every row. -/
abbrev withBias (acc : Vec F S1024x1024 .f32) (b : Vec F S1x1024 .f32) : Vec F S1024x1024 .f32 := k0_pay3 acc b

/-- First contraction tile: the accumulator is reset to zero and then takes the first partial product. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = step (zeroBlock (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, h3.read_unread, h4.read_unread, View.ld_unit_zero (S := S1024x1024) origin2]

/-- A middle contraction tile: the accumulator takes one more partial product. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = step xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin2]
  simp only [View.readAt_eq_ld, h7.read_unread, h3.read_unread, h4.read_unread, View.ld_unit_zero (S := S1024x1024) origin2]

/-- Last contraction tile: the accumulator takes the last partial product … -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = step xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin2]
  simp only [View.readAt_eq_ld, h7.read_unread, h3.read_unread, h4.read_unread, View.ld_unit_zero (S := S1024x1024) origin2]

/-- … and the output block is that finished accumulator plus the bias row. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = withBias (step xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin2, View.readCov_unit_zero (S := S1024x1024) _ origin2]
  simp only [View.readAt_eq_ld, h7.read_unread, h3.read_unread, h4.read_unread, h5.read_unread,
    View.ld_unit_zero (S := S1024x1024) origin2, View.ld_unit_zero (S := S1x1024) origin2]

end Cert.Toeplitz.Body

end
-- ==== Proof.LibDotT.lean ====
/-
  A matrix product whose right factor is contracted on its LAST axis (an M×K matrix times the transpose of an N×K
  matrix), into the zero matrix, at the ideal values: its entry (r, c) is the sum over k of (r, k) times (c, k).
  Nothing here mentions a program: literal ranks, symbolic extents.
-/
import Idealize.ShloMosaic.PureOps.Ideal.Laws
import Idealize.ShloMosaic.Lib.ValueIdx

noncomputable section

namespace Cert.DotT

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's ROW coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- The product of an M×K matrix with the transpose of an N×K matrix, into the zero matrix, at entry (r, c): the sum
    over k of (r, k) times (c, k). -/
theorem matmul_apply {M K N : Nat} {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.DotT

end
-- ==== Proof.StepValue.lean ====
/-
  One grid step's arithmetic at an entry, on the extended reals.

  At entry (r, s) of a 1024 × 1024 block:
    the zero block is 0;
    a step is            acc (r, s) + Σ_{k < 1024} x (r, k) · w (s, k)   (the weight block enters transposed);
    the output block is  acc (r, s) + bias (0, s).
-/
import proofs.«171036_j2173253452210_2_alg».proof.Proof.BodyCases
import proofs.«171036_j2173253452210_2_alg».proof.Proof.LibDotT
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem

namespace Cert.Toeplitz.Body

open Cert.KernelIdeal Cert.KernelIdeal.Gen Idealize.ShloMosaic.ValueIdx

/-- The zero block is zero everywhere. -/
theorem zeroBlock_apply (j : S1024x1024.Idx) : (zeroBlock (F := Ideal)) j = 0 := by
  show k0_pay1 (F := Ideal) j = 0
  unfold k0_pay1
  simp only [shapeCast_self]
  exact Ideal.ofBits_zero_f32

/-- A step at (r, s): the accumulator plus the contraction of x's row r with the weight block's row s. -/
theorem step_apply (acc : Vec Ideal S1024x1024 .f32) (x w : Vec Ideal S1024x1024 .bf16) (r s : Fin 1024) :
    step acc x w (ix2 r s) = acc (ix2 r s) + ∑ k : Fin 1024, x (ix2 r k) * w (ix2 s k) := by
  show k0_pay2 acc x w (ix2 r s) = _
  unfold k0_pay2
  simp only [shapeCast_self]
  show acc (ix2 r s) + matmul (DotDims.transposedRhs 1024 1024 1024) none x w
      (constant (F := Ideal) ⟨2, ![1024, 1024]⟩ .f32 0x00000000#32) (ix2 r s) = _
  rw [Cert.DotT.matmul_apply]

/-- The output block at (r, s): the accumulator plus the bias row's entry s. -/
theorem withBias_apply (acc : Vec Ideal S1024x1024 .f32) (b : Vec Ideal S1x1024 .f32) (r s : Fin 1024) :
    withBias acc b (ix2 r s) = acc (ix2 r s) + b (ix2 (0 : Fin 1) s) := by
  show k0_pay3 acc b (ix2 r s) = _
  unfold k0_pay3
  simp only [shapeCast_self]
  show acc (ix2 r s) + broadcastTo S1024x1024 b broadcasts_S1x1024_S1024x1024 (ix2 r s) = _
  rw [broadcastTo_apply b broadcasts_S1x1024_S1024x1024 (ix2 r s) (ix2 (0 : Fin 1) s) (fun a => match a with
    | ⟨0, _⟩ => by show (0 : Nat) = if (1 : Nat) = 1 then 0 else _; rw [if_pos rfl]
    | ⟨1, _⟩ => by show s.val = if (1024 : Nat) = 1 then 0 else _; rw [if_neg (by decide)]; rfl)]

end Cert.Toeplitz.Body

end
-- ==== Proof.LibWindowGather.lean ====
/-
  A window of C consecutive entries cut out of a flat array of N entries, one window per row, the R window starts
  given as an [R, 1] column of integers: what a dynamic_slice of a vector, mapped over a vector of starts, lowers to
  (a gather with one offset axis, nothing collapsed, slice size C). Entry (r, j) of the result is the operand at
  start r + j, where the start is read signed and clamped into [0, N − C] so that the window fits.
  Nothing here mentions a program: literal ranks, symbolic extents.
-/
import Idealize.ShloMosaic.PureOps.Ideal
import Idealize.ShloMosaic.Lib.ValueIdx

noncomputable section

namespace Cert.Lib.WindowGather

open Idealize.ShloMosaic Idealize.ShloMosaic.ValueIdx

variable {α : Type}

/-- The dimension numbers of that gather, for an operand [N], starts [R, 1] and a result [R, C]. -/
abbrev dims (N R C : Nat) (wf : GatherDims.WF ⟨1, ![N]⟩ ⟨2, ![R, 1]⟩ ⟨2, ![R, C]⟩ [1] [] [] [0] [] 1 ![C]) :
    GatherDims ⟨1, ![N]⟩ ⟨2, ![R, 1]⟩ ⟨2, ![R, C]⟩ where
  offsetDims := [1]
  collapsedSliceDims := []
  operandBatchingDims := []
  startIndicesBatchingDims := []
  startIndexMap := [0]
  indexVectorDim := 1
  sliceSizes := ![C]
  wf := wf

/-- Where row r's start sits in the column of starts: (r, 0). -/
abbrev startAt {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- The windowed gather read at (r, j): the operand at (start r, clamped into [0, N − C]) + j. -/
theorem apply {N R C w : Nat} (wf : GatherDims.WF ⟨1, ![N]⟩ ⟨2, ![R, 1]⟩ ⟨2, ![R, C]⟩ [1] [] [] [0] [] 1 ![C])
    (x : (⟨1, ![N]⟩ : Shape).Idx → α) (idx : IVec ⟨2, ![R, 1]⟩ w) (y : (⟨2, ![R, C]⟩ : Shape).Idx)
    (hb : min (idx (startAt y)).toInt.toNat (N - C) + (y 1).val < N) :
    Host.gather (dims N R C wf) x idx y = x (ix1 ⟨min (idx (startAt y)).toInt.toNat (N - C) + (y 1).val, hb⟩) := by
  unfold Host.gather
  congr 1
  funext a
  obtain rfl : a = 0 := Subsingleton.elim _ _
  refine Fin.ext ?_
  show (dims N R C wf).start y idx 0 + (dims N R C wf).batchCoord y 0 + (dims N R C wf).offCoord y 0 = _
  rw [GatherDims.batchCoord_eq_zero _ _ _ List.not_mem_nil]
  have hoff : (dims N R C wf).offCoord y 0 = (y 1).val := by
    unfold GatherDims.offCoord
    rw [dif_pos (show (0 : Fin 1) ∈ (dims N R C wf).sKept from
      ((dims N R C wf).mem_sKept 0).mpr ⟨List.not_mem_nil, List.not_mem_nil⟩)]
    rfl
  have hstart : (dims N R C wf).start y idx 0 = min (idx (startAt y)).toInt.toNat (N - C) := by
    unfold GatherDims.start
    rw [dif_pos (show (0 : Fin 1) ∈ (dims N R C wf).startIndexMap from List.mem_singleton.mpr rfl)]
    have hsi : (dims N R C wf).siIdx y ⟨List.idxOf (0 : Fin 1) (dims N R C wf).startIndexMap,
        List.idxOf_lt_length_iff.2 (List.mem_singleton.mpr rfl)⟩ = startAt y := by
      funext b; refine Fin.ext ?_
      match b with
      | ⟨0, _⟩ => rfl
      | ⟨1, _⟩ => rfl
    rw [hsi]
    rfl
  rw [hoff, hstart, Nat.add_zero]
  rfl

end Cert.Lib.WindowGather

end
-- ==== Proof.IndexWords.lean ====
/-
  The integer side of the Toeplitz indexing, on 32-bit words.

  Both programs form a parameter index from the output feature o and the input feature k, both below 4096:
  the kernel side the row start 4095 − o, the reference side the full index 4095 − o + k. Neither wraps around
  in 32 bits, both lie in [0, 8190], so jnp's "add the length if negative" select leaves them alone and the
  word reads back, as a signed integer, as the natural number itself.
-/
import Idealize.ShloMosaic.PureOps.Ideal

namespace Cert.Toeplitz.Words

open Idealize.ShloMosaic

/-- 4095 − o + k, computed on words, is the word of that natural number. -/
theorem diag_word (o k : Nat) (ho : o < 4096) (hk : k < 4096) :
    IntOp.addi (IntOp.subi 4095#32 (BitVec.ofNat 32 o)) (BitVec.ofNat 32 k) = BitVec.ofNat 32 (4095 - o + k) := by
  unfold IntOp.addi IntOp.subi
  apply BitVec.eq_of_toNat_eq
  simp only [BitVec.toNat_add, BitVec.toNat_sub, BitVec.toNat_ofNat]
  omega

/-- 4095 − o, computed on words, is the word of that natural number. -/
theorem start_word (o : Nat) (ho : o < 4096) :
    IntOp.subi 4095#32 (BitVec.ofNat 32 o) = BitVec.ofNat 32 (4095 - o) := by
  unfold IntOp.subi
  apply BitVec.eq_of_toNat_eq
  simp only [BitVec.toNat_sub, BitVec.toNat_ofNat]
  omega

/-- A word below 8191 is non-negative as a signed integer: it reads as the natural number itself. -/
theorem word_toInt (d : Nat) (hd : d < 8191) : (BitVec.ofNat 32 d).toInt = (d : Int) := by
  have hmod : d % 2 ^ 32 = d := Nat.mod_eq_of_lt (by omega)
  have h : 2 * (BitVec.ofNat 32 d).toNat < 2 ^ 32 := by
    rw [BitVec.toNat_ofNat, hmod]; omega
  rw [BitVec.toInt_eq_toNat_of_lt h, BitVec.toNat_ofNat, hmod]

/-- The negative-index wrap of a word in [0, 8190] is the word itself, and it reads back as that number. -/
theorem wrap_read (d : Fin 8191) :
    (Scalar.select (IntOp.cmpi .slt (BitVec.ofNat 32 d.val) 0#32) (IntOp.addi (BitVec.ofNat 32 d.val) 8191#32)
      (BitVec.ofNat 32 d.val)).toInt.toNat = d.val := by
  have hslt : IntOp.cmpi .slt (BitVec.ofNat 32 d.val) 0#32 = 0#1 := by
    unfold IntOp.cmpi
    have hf : (BitVec.ofNat 32 d.val).slt 0#32 = false := by
      rw [BitVec.slt_eq_decide, word_toInt d.val d.isLt, BitVec.toInt_zero]
      exact decide_eq_false (by omega)
    show BitVec.ofBool ((BitVec.ofNat 32 d.val).slt 0#32) = 0#1
    rw [hf]; rfl
  rw [hslt]
  unfold Scalar.select
  rw [if_neg (by decide), word_toInt d.val d.isLt]
  exact Int.toNat_natCast d.val

end Cert.Toeplitz.Words
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.ToeplitzSpec.lean ====
/-
  The specification: a dense layer whose weight matrix is a Toeplitz matrix cut out of one parameter vector.

  For a batch row r and an output feature o,
      layer x p b (r, o) = (Σ_{k < 4096} x (r, k) · p (4095 − o + k)) + b o
  on the extended reals: weight entry (o, k) is parameter 4095 − o + k, constant along the diagonals.

  A contraction computed in four tiles of 1024 — a running sum that starts at zero and takes one tile's partial sum
  at a time — is the whole contraction: addition on the extended reals is commutative and associative, and nothing
  needs to be finite.
-/
import proofs.«171036_j2173253452210_2_alg».proof.Proof.LibBlockSum
import Idealize.ShloMosaic.PureOps.Ideal
import Idealize.ShloMosaic.Lib.ValueIdx

noncomputable section

open scoped BigOperators

namespace Cert.Toeplitz

open Idealize.ShloMosaic Idealize.ShloMosaic.ValueIdx

/-- The parameter that weight entry (o, k) is: index 4095 − o + k, which is below 8191. -/
def diag (o k : Fin 4096) : Fin 8191 := ⟨4095 - o.val + k.val, by have := o.isLt; have := k.isLt; omega⟩

/-- The layer's result, entry by entry. -/
def layer (x : (⟨2, ![8192, 4096]⟩ : Shape).Idx → EReal) (p : (⟨1, ![8191]⟩ : Shape).Idx → EReal)
    (b : (⟨1, ![4096]⟩ : Shape).Idx → EReal) : (⟨2, ![8192, 4096]⟩ : Shape).Idx → EReal :=
  fun i => (∑ k : Fin 4096, x (ix2 (n0 := 8192) (i 0) k) * p (ix1 (diag (i 1) k))) + b (ix1 (n := 4096) (i 1))

/-- Four tile sums, added one after the other onto zero, are the whole sum: tile s holds positions s·1024 + j. -/
theorem sum_by_tiles (f : Fin 4096 → EReal) (g : ℕ → EReal)
    (hg : ∀ (s : ℕ) (hs : s < 4), g s = ∑ j : Fin 1024, f ⟨s * 1024 + j.val, by have := j.isLt; omega⟩) :
    0 + ∑ s ∈ Finset.range 4, g s = ∑ k : Fin 4096, f k := by
  rw [zero_add, Finset.sum_range, Cert.Lib.BlockSum.sum_blocks 4 1024 f]
  refine Finset.sum_congr rfl fun b _ => ?_
  rw [hg b.val b.isLt]
  exact Finset.sum_congr rfl fun j _ => congrArg f (Fin.ext rfl)

end Cert.Toeplitz

end
-- ==== Proof.StagedArrays.lean ====
/-
  What the kernel region finds in the three arrays it stages.

  Before the region the program copies x (a change of float format: the identity on the extended reals), lays the
  bias out as a [1, 4096] row, and builds the [4096, 4096] weight matrix by cutting, for each output feature o, the
  window of 4096 consecutive parameters that starts at 4095 − o. The start lies in [0, 4095], so the window fits
  in the 8191 parameters and the clamp of the start does nothing: weight entry (o, k) is parameter 4095 − o + k.
-/
import proofs.«171036_j2173253452210_2_alg».proof.Proof.Gen.KernelIdeal.Value
import proofs.«171036_j2173253452210_2_alg».proof.Proof.LibWindowGather
import proofs.«171036_j2173253452210_2_alg».proof.Proof.IndexWords
import proofs.«171036_j2173253452210_2_alg».proof.Proof.ToeplitzSpec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.StableHlo

namespace Cert.Toeplitz.Staged

open Cert.KernelIdeal Cert.KernelIdeal.Gen Idealize.ShloMosaic.ValueIdx

variable (m : (ℓ : Loc nD τ sig) → Buf (Elt Ideal) ℓ)

/-- The three arguments as the program is launched with them. -/
abbrev argX (c : Dev nD) : S8192x4096.Idx → EReal := m ((c : Thread nD τ).loc main_arg0)
abbrev argP (c : Dev nD) : S8191.Idx → EReal := m ((c : Thread nD τ).loc main_arg1)
abbrev argB (c : Dev nD) : S4096.Idx → EReal := m ((c : Thread nD τ).loc main_arg2)

/-- The staged copy of x is x. -/
theorem x_copy (c : Dev nD) : (V m c main_v11 : S8192x4096.Idx → EReal) = argX m c := by
  dsimp only [V, hostOps0]; after_results <;> rfl

/-- The staged bias row at column o is bias o. -/
theorem bias_row (c : Dev nD) (o : Fin 4096) :
    (V m c main_v12 : S1x4096.Idx → EReal) (ix2 (0 : Fin 1) o) = argB m c (ix1 o) := by
  have e : (V m c main_v12 : S1x4096.Idx → EReal)
      = broadcastInDim S1x4096 ![1] bcast_S4096_S1x4096_1 (argB m c) := by
    dsimp only [V, hostOps0]; after_results <;> rfl
  rw [e]
  exact broadcastInDim_apply _ bcast_S4096_S1x4096_1 _ _ (ix1 o) (fun a => match a with
    | ⟨0, _⟩ => by show o.val = if (4096 : Nat) = 1 then 0 else o.val; rw [if_neg (by decide)])

/-- The column of window starts the program computes: 4095 − o, wrapped if negative (it never is). -/
def startColumn : IVec S4096x1 32 :=
  broadcastInDim S4096x1 ![0] bcast_S4096_S4096x1_0
    (select
      (cmpi CmpIPredicate.slt
        (subi (broadcastInDim S4096 ![] bcast_S_S4096 (constantI S_ 32 4095#32)) (iotaInDim S4096 32 0))
        (broadcastInDim S4096 ![] bcast_S_S4096 (constantI S_ 32 0#32)))
      (addi (subi (broadcastInDim S4096 ![] bcast_S_S4096 (constantI S_ 32 4095#32)) (iotaInDim S4096 32 0))
        (broadcastInDim S4096 ![] bcast_S_S4096 (constantI S_ 32 8191#32)))
      (subi (broadcastInDim S4096 ![] bcast_S_S4096 (constantI S_ 32 4095#32)) (iotaInDim S4096 32 0)))

/-- A scalar stretched over the 4096 features reads as the scalar. -/
theorem splat_read (b : BitVec 32) (o : Fin 4096) :
    (broadcastInDim S4096 ![] bcast_S_S4096 (constantI S_ 32 b) : IVec S4096 32) (ix1 o) = b :=
  broadcastInDim_apply _ bcast_S_S4096 _ _ ix0 (fun a => a.elim0)

/-- Row o's window starts at 4095 − o. -/
theorem start_read (o : Fin 4096) : (startColumn (ix2 o (0 : Fin 1))).toInt.toNat = 4095 - o.val := by
  unfold startColumn
  rw [broadcastInDim_apply _ bcast_S4096_S4096x1_0 _ (ix2 o (0 : Fin 1)) (ix1 o) (fun a => match a with
    | ⟨0, _⟩ => by show o.val = if (4096 : Nat) = 1 then 0 else o.val; rw [if_neg (by decide)])]
  show (Scalar.select
      (IntOp.cmpi .slt (IntOp.subi ((broadcastInDim S4096 ![] bcast_S_S4096 (constantI S_ 32 4095#32) : IVec S4096 32) (ix1 o)) (BitVec.ofNat 32 o.val))
        ((broadcastInDim S4096 ![] bcast_S_S4096 (constantI S_ 32 0#32) : IVec S4096 32) (ix1 o)))
      (IntOp.addi (IntOp.subi ((broadcastInDim S4096 ![] bcast_S_S4096 (constantI S_ 32 4095#32) : IVec S4096 32) (ix1 o)) (BitVec.ofNat 32 o.val))
        ((broadcastInDim S4096 ![] bcast_S_S4096 (constantI S_ 32 8191#32) : IVec S4096 32) (ix1 o)))
      (IntOp.subi ((broadcastInDim S4096 ![] bcast_S_S4096 (constantI S_ 32 4095#32) : IVec S4096 32) (ix1 o)) (BitVec.ofNat 32 o.val))).toInt.toNat = _
  rw [splat_read, splat_read, splat_read, Cert.Toeplitz.Words.start_word o.val o.isLt]
  exact Cert.Toeplitz.Words.wrap_read ⟨4095 - o.val, by have := o.isLt; omega⟩

/-- The staged weight matrix: entry (o, k) is parameter 4095 − o + k. -/
theorem weight_apply (c : Dev nD) (o k : Fin 4096) :
    (V m c main_v10 : S4096x4096.Idx → EReal) (ix2 o k) = argP m c (ix1 (Cert.Toeplitz.diag o k)) := by
  have e : (V m c main_v10 : S4096x4096.Idx → EReal)
      = Host.gather (Cert.Lib.WindowGather.dims 8191 4096 4096 gather_S8191_S4096x1_S4096x4096_1_n_n_n_0_1_4096_wf)
          (argP m c) startColumn := by
    dsimp only [V, hostOps0]; after_results <;> rfl
  have hs : (startColumn (Cert.Lib.WindowGather.startAt (ix2 o k))).toInt.toNat = 4095 - o.val := start_read o
  have ho := o.isLt
  have hk := k.isLt
  rw [e, Cert.Lib.WindowGather.apply _ _ _ _ (by rw [hs]; show min (4095 - o.val) (8191 - 4096) + k.val < 8191; omega)]
  refine congrArg (argP m c) (congrArg ix1 (Fin.ext ?_))
  show min (startColumn (Cert.Lib.WindowGather.startAt (ix2 o k))).toInt.toNat (8191 - 4096) + k.val = 4095 - o.val + k.val
  rw [hs]
  omega

end Cert.Toeplitz.Staged

end
-- ==== Proof.Accumulate.lean ====
/-
  The accumulator over one output block's four contraction tiles, and the block that is written out.

  Grid point t (below 128) is (batch tile t / 16, output tile t / 4 % 4, contraction tile t % 4). The x block of point t
  is rows (t / 16)·1024 + r and columns (t % 4)·1024 + k of x; the weight block is rows (t / 4 % 4)·1024 + s and the same
  columns of the Toeplitz matrix; the bias block is columns (t / 4 % 4)·1024 + s of the bias row.

  So one step adds to the accumulator entry (r, s) the partial contraction over contraction tile t % 4 (tileSum);
  the accumulator after point t is zero plus the partial contractions of the tiles 0 … t % 4 of the same output
  block; and at the last tile the block written out is that sum plus the bias.
-/
import proofs.«171036_j2173253452210_2_alg».proof.Proof.StepValue
import proofs.«171036_j2173253452210_2_alg».proof.Proof.StagedArrays

set_option maxRecDepth 16384

noncomputable section

open scoped BigOperators
open Idealize.ShloMosaic Idealize.ShloMosaic.TcCoe Idealize.SL.Sem
open Idealize.ShloMosaic.Pipeline (Dat)

namespace Cert.Toeplitz.Acc

open Cert.KernelIdeal Cert.KernelIdeal.Gen Cert.KernelIdeal.Value Idealize.ShloMosaic.ValueIdx
open Cert.Toeplitz.Body Cert.Toeplitz.Staged

variable (m : (ℓ : Loc nD τ sig) → Buf (Elt Ideal) ℓ)

/-- The grid has 128 points. -/
theorem point_lt (t : Fin cfg0.N) : t.val < 128 := lt_of_lt_of_eq t.isLt (show cfg0.N = 128 from N_0)

/-- Which tile of each array a grid point works on, decided over the 128 points. -/
theorem tile_of_point : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The x block of point t, entry (r, k): x at row (t / 16)·1024 + r, column (t % 4)·1024 + k. -/
theorem xblk_apply (c : Dev nD) (t : Fin cfg0.N) (r k : Fin 1024)
    (h0 : t.val / 16 % 8 * 1024 + r.val < 8192) (h1 : t.val % 4 * 1024 + k.val < 4096) :
    (iblk m c 0 t : Vec Ideal S1024x1024 .bf16) (ix2 r k) = argX m c (ix2 ⟨_, h0⟩ ⟨_, h1⟩) := by
  have hN := point_lt t
  obtain ⟨e00, e01, -⟩ := tile_of_point t
  unfold iblk
  rw [View.read_apply]
  refine (congrFun (x_copy m c) _).trans (congrArg (argX m c) (funext fun a => Fin.ext ?_))
  match a with
  | ⟨0, _⟩ => show win0_0.index t (0 : Fin 2) * 1024 + 1 * r.val = t.val / 16 % 8 * 1024 + r.val; rw [e00]; omega
  | ⟨1, _⟩ => show win0_0.index t (1 : Fin 2) * 1024 + 1 * k.val = t.val % 4 * 1024 + k.val; rw [e01]; omega

/-- The weight block of point t, entry (s, k): the parameter on the diagonal of output feature (t / 4 % 4)·1024 + s
    and input feature (t % 4)·1024 + k. -/
theorem wblk_apply (c : Dev nD) (t : Fin cfg0.N) (s k : Fin 1024)
    (h0 : t.val / 4 % 4 * 1024 + s.val < 4096) (h1 : t.val % 4 * 1024 + k.val < 4096) :
    (iblk m c 1 t : Vec Ideal S1024x1024 .bf16) (ix2 s k) = argP m c (ix1 (Cert.Toeplitz.diag ⟨_, h0⟩ ⟨_, h1⟩)) := by
  obtain ⟨-, -, e10, e11, -⟩ := tile_of_point t
  unfold iblk
  rw [View.read_apply]
  refine Eq.trans (congrArg (V m c main_v10 : S4096x4096.Idx → EReal) (funext fun a => Fin.ext ?_))
    (weight_apply m c ⟨_, h0⟩ ⟨_, h1⟩)
  match a with
  | ⟨0, _⟩ => show win0_1.index t (0 : Fin 2) * 1024 + 1 * s.val = t.val / 4 % 4 * 1024 + s.val; rw [e10]; omega
  | ⟨1, _⟩ => show win0_1.index t (1 : Fin 2) * 1024 + 1 * k.val = t.val % 4 * 1024 + k.val; rw [e11]; omega

/-- The bias block of point t, entry (0, s): the bias of output feature (t / 4 % 4)·1024 + s. -/
theorem bblk_apply (c : Dev nD) (t : Fin cfg0.N) (s : Fin 1024) (h1 : t.val / 4 % 4 * 1024 + s.val < 4096) :
    (iblk m c 2 t : Vec Ideal S1x1024 .f32) (ix2 (0 : Fin 1) s) = argB m c (ix1 ⟨_, h1⟩) := by
  obtain ⟨-, -, -, -, e20, e21, -⟩ := tile_of_point t
  unfold iblk
  rw [View.read_apply]
  refine Eq.trans (congrArg (V m c main_v12 : S1x4096.Idx → EReal) (funext fun a => Fin.ext ?_))
    (bias_row m c ⟨_, h1⟩)
  match a with
  | ⟨0, _⟩ => show win0_2.index t (0 : Fin 2) * 1 + 1 * 0 = 0; rw [e20]
  | ⟨1, _⟩ => show win0_2.index t (1 : Fin 2) * 1024 + 1 * s.val = t.val / 4 % 4 * 1024 + s.val; rw [e21]; omega

/-- The partial contraction that grid point n adds at entry i of its output block: over its 1024 columns, x times the
    Toeplitz weight. (Total in n: the tile numbers are reduced into range, which changes nothing below 128.) -/
def tileSum (c : Dev nD) (n : ℕ) (i : S1024x1024.Idx) : EReal :=
  ∑ k : Fin 1024,
    argX m c (ix2 (⟨n / 16 % 8 * 1024 + (i 0).val, by have := idx2_lt0 i; omega⟩ : Fin 8192)
        (⟨n % 4 * 1024 + k.val, by have := k.isLt; omega⟩ : Fin 4096))
      * argP m c (ix1 (Cert.Toeplitz.diag ⟨n / 4 % 4 * 1024 + (i 1).val, by have := idx2_lt1 i; omega⟩
          ⟨n % 4 * 1024 + k.val, by have := k.isLt; omega⟩))

/-- One step on point t's blocks adds tileSum t. -/
theorem step_tile (c : Dev nD) (t : Fin cfg0.N) (acc : Vec Ideal S1024x1024 .f32) (i : S1024x1024.Idx) :
    step acc (iblk m c 0 t) (iblk m c 1 t) i = acc i + tileSum m c t.val i := by
  obtain ⟨r, s, rfl⟩ : ∃ (r s : Fin 1024), i = ix2 r s := ⟨i 0, i 1, eq_ix2 i⟩
  refine (step_apply acc (iblk m c 0 t) (iblk m c 1 t) r s).trans ?_
  unfold tileSum
  congr 1
  refine Finset.sum_congr rfl fun k _ => ?_
  have hr := r.isLt
  have hs := s.isLt
  have hk := k.isLt
  rw [xblk_apply m c t r k (by omega) (by omega), wblk_apply m c t s k (by omega) (by omega)]

/-- At a first contraction tile the accumulator is reset and takes the first partial product, whatever it held. -/
theorem sc_first (c : Dev nD) (t : Fin cfg0.N) (h0 : t.val % 4 = 0) (acc : Vec Ideal S1024x1024 .f32) :
    scAt0_0 m c t.val t.isLt acc = step (zeroBlock (F := Ideal)) (iblk m c 0 t) (iblk m c 1 t) := by
  unfold scAt0_0
  rw [dif_pos h0, dif_neg (by omega)]
  exact acc_first c (grid0.coords t) (ms0_0 t) (hs0_0 t) (ms0_1 t) (hs0_1 t) (ms0_2 t) (hs0_2 t) (ms0_3 t) (hs0_3 t)
    scM0_0 (Memref.isWhole_whole _) _ _ (iblk m c 0 t) (iblk m c 1 t) (iblk m c 2 t)

/-- At every other contraction tile it takes one more partial product. -/
theorem sc_later (c : Dev nD) (t : Fin cfg0.N) (h0 : ¬t.val % 4 = 0) (acc : Vec Ideal S1024x1024 .f32) :
    scAt0_0 m c t.val t.isLt acc = step acc (iblk m c 0 t) (iblk m c 1 t) := by
  unfold scAt0_0
  by_cases h1 : t.val % 4 = 3
  · rw [dif_neg h0, dif_pos h1]
    exact acc_last c (grid0.coords t) (ms0_0 t) (hs0_0 t) (ms0_1 t) (hs0_1 t) (ms0_2 t) (hs0_2 t) (ms0_3 t) (hs0_3 t)
      scM0_0 (Memref.isWhole_whole _) _ _ (iblk m c 0 t) (iblk m c 1 t) (iblk m c 2 t) acc
  · rw [dif_neg h0, dif_neg h1]
    exact acc_middle c (grid0.coords t) (ms0_0 t) (hs0_0 t) (ms0_1 t) (hs0_1 t) (ms0_2 t) (hs0_2 t) (ms0_3 t) (hs0_3 t)
      scM0_0 (Memref.isWhole_whole _) _ _ (iblk m c 0 t) (iblk m c 1 t) (iblk m c 2 t) acc

/-- The accumulator after point t: zero plus the partial contractions of the tiles 0 … t % 4 of t's output block. -/
theorem acc_after (c : Dev nD) (t : Fin cfg0.N) (i : S1024x1024.Idx) :
    (outsAt0 m c t.val t.isLt).2 i
      = 0 + ∑ s ∈ Finset.range (t.val % 4 + 1), tileSum m c (4 * (t.val / 4) + s) i := by
  have hN := point_lt t
  refine (congrFun (soutsAt0_0_eq m c t) i).trans ?_
  refine Pipeline.accAt_add_apply _ _ (fun _ => 0) (tileSum m c) (4 * (t.val / 4)) 3 ?_ ?_ (t.val % 4) (by omega) _ i
  · intro h j
    show scAt0_0 m c (⟨4 * (t.val / 4), h⟩ : Fin cfg0.N).val (⟨4 * (t.val / 4), h⟩ : Fin cfg0.N).isLt _ j = _
    rw [sc_first m c ⟨4 * (t.val / 4), h⟩ (by show 4 * (t.val / 4) % 4 = 0; omega), step_tile, zeroBlock_apply]
  · intro n h acc j hlo hhi
    show scAt0_0 m c (⟨n, h⟩ : Fin cfg0.N).val (⟨n, h⟩ : Fin cfg0.N).isLt acc j = _
    rw [sc_later m c ⟨n, h⟩ (by show ¬n % 4 = 0; omega), step_tile]

/-- At a last contraction tile the output block is the accumulator just computed plus the bias block. -/
theorem out_of_acc (c : Dev nD) (t : Fin cfg0.N) (h3 : t.val % 4 = 3) :
    (outsAt0 m c t.val t.isLt).1 = withBias (outsAt0 m c t.val t.isLt).2 (iblk m c 2 t) := by
  rw [outsAt0_C m c t (by omega) h3]
  dsimp only
  exact (out_last ..).trans (congrArg (fun a => withBias a (iblk m c 2 t)) (acc_last ..).symm)

end Cert.Toeplitz.Acc

end
-- ==== Proof.ResultArray.lean ====
/-
  The array the kernel leaves behind is the layer.

  The block written out at the last contraction tile of output block (batch tile a, output tile b), entry (r, s), is
      (0 + Σ_{tile < 4} partial contraction of that tile) + bias (b·1024 + s),
  and the four partial contractions are the whole contraction over the 4096 input features: the layer at
  (a·1024 + r, b·1024 + s). Every entry of the result lies in exactly such a block — the one written at grid point
  (r / 1024)·16 + (o / 1024)·4 + 3 — so after the run the whole array is the layer of the three arguments.
-/
import proofs.«171036_j2173253452210_2_alg».proof.Proof.Accumulate

set_option maxRecDepth 16384

noncomputable section

open scoped BigOperators
open Idealize.ShloMosaic Idealize.ShloMosaic.TcCoe Idealize.SL.Sem
open Idealize.ShloMosaic.Pipeline (Dat)

namespace Cert.Toeplitz.Result

open Cert.KernelIdeal Cert.KernelIdeal.Gen Cert.KernelIdeal.Value Idealize.ShloMosaic.ValueIdx
open Cert.Toeplitz.Body Cert.Toeplitz.Staged Cert.Toeplitz.Acc

variable (m : (ℓ : Loc nD τ sig) → Buf (Elt Ideal) ℓ) (ρ : Dev nD → PrngReg)

/-- The layer of the three arguments, as contents of the result array. -/
abbrev result (c : Dev nD) : Buf (Elt Ideal) ((c : Thread nD τ).loc main_v13) :=
  Cert.Toeplitz.layer (argX m c) (argP m c) (argB m c)

/-- The block written out at a last contraction tile, entry (r, s): the layer at the entry's place in the array. -/
theorem out_block_apply (c : Dev nD) (t : Fin cfg0.N) (h3 : t.val % 4 = 3) (r s : Fin 1024)
    (h0 : t.val / 16 % 8 * 1024 + r.val < 8192) (h1 : t.val / 4 % 4 * 1024 + s.val < 4096) :
    (outsAt0 m c t.val t.isLt).1 (ix2 r s)
      = Cert.Toeplitz.layer (argX m c) (argP m c) (argB m c) (ix2 (⟨_, h0⟩ : Fin 8192) (⟨_, h1⟩ : Fin 4096)) := by
  have hN := point_lt t
  rw [out_of_acc m c t h3]
  refine (withBias_apply (outsAt0 m c t.val t.isLt).2 (iblk m c 2 t) r s).trans ?_
  rw [acc_after m c t (ix2 r s), bblk_apply m c t s h1, h3]
  unfold Cert.Toeplitz.layer
  congr 1
  refine Cert.Toeplitz.sum_by_tiles
    (fun k => argX m c (ix2 (⟨_, h0⟩ : Fin 8192) k) * argP m c (ix1 (Cert.Toeplitz.diag ⟨_, h1⟩ k))) _ (fun s' hs' => ?_)
  unfold tileSum
  refine Finset.sum_congr rfl fun j _ => ?_
  have e1 : (4 * (t.val / 4) + s') / 16 % 8 = t.val / 16 % 8 := by omega
  have e2 : (4 * (t.val / 4) + s') % 4 = s' := by omega
  have e3 : (4 * (t.val / 4) + s') / 4 % 4 = t.val / 4 % 4 := by omega
  simp only [e1, e2, e3]
  try rfl

/-- What a flushing point writes back is its block of the layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN := point_lt t
  obtain ⟨-, -, -, -, -, -, e30, e31⟩ := tile_of_point t
  rw [flushed3]
  funext j
  have hj0 : (j 0).val < 1024 := (j 0).isLt
  have hj1 : (j 1).val < 1024 := (j 1).isLt
  show (outsAt0 m c t.val t.isLt).1 j = result m c (((cfg0.win 3).blk t).view.emb j)
  have hj : (j : S1024x1024.Idx) = ix2 (⟨(j 0).val, hj0⟩ : Fin 1024) (⟨(j 1).val, hj1⟩ : Fin 1024) :=
    funext fun a => Fin.ext (by match a with | ⟨0, _⟩ => rfl | ⟨1, _⟩ => rfl)
  refine (congrArg (outsAt0 m c t.val t.isLt).1 hj).trans ?_
  refine (out_block_apply m c t h3 ⟨_, hj0⟩ ⟨_, hj1⟩ (by omega) (by omega)).trans ?_
  refine congrArg (result m c) (funext fun a => Fin.ext ?_)
  match a with
  | ⟨0, _⟩ =>
    show t.val / 16 % 8 * 1024 + (j 0).val = win0_3.index t (0 : Fin 2) * 1024 + 1 * (j 0).val
    rw [e30]; omega
  | ⟨1, _⟩ =>
    show t.val / 4 % 4 * 1024 + (j 1).val = win0_3.index t (1 : Fin 2) * 1024 + 1 * (j 1).val
    rw [e31]; omega

/-- An entry of the result is in point t's block exactly when each coordinate is in the block's range. -/
theorem mem_blk (t : Fin cfg0.N) (i : S8192x4096.Idx) :
    i ∈ ((cfg0.win 3).blk t).view.set ↔ ∀ a : Fin 2,
      win0_3.index t a * S1024x1024.size a ≤ (i a).val ∧ (i a).val < win0_3.index t a * S1024x1024.size a + S1024x1024.size a := by
  show i ∈ ((View.whole main_v13).slice (win0_3.rect t)).set ↔ _
  rw [View.set_slice_whole, Rect.mem_set_unit]
  exact Iff.rfl

/-- Every entry is in the block of a flushing point: the last contraction tile of its batch tile and output tile. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 1024 * 16 + (i 1).val / 1024 * 4 + 3 :=
    ⟨⟨(i 0).val / 1024 * 16 + (i 1).val / 1024 * 4 + 3, by rw [show cfg0.N = 128 from N_0]; omega⟩, rfl⟩
  obtain ⟨-, -, -, -, -, -, e30, e31⟩ := tile_of_point t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e30]; omega
  | ⟨1, _⟩ =>
    show win0_3.index t (1 : Fin 2) * 1024 ≤ (i 1).val ∧ (i 1).val < win0_3.index t (1 : Fin 2) * 1024 + 1024
    rw [e31]; omega

/-- After the run the result array is the layer. -/
theorem final (c : Dev nD) : (dats m 0 c).arrAt 3 cfg0.N = result m c :=
  (dats m 0 c).arrAt_eq_of_cover 3 (result m c) (flushed_eq m c) cover

/-- The kernel's run: every weakly fair execution terminates with the result array at the layer of the arguments
    and the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Toeplitz.Result

end
-- ==== Proof.RefSide.lean ====
/-
  The reference computes the layer.

  The reference builds the index matrix 4095 − o + k out of two iotas, wraps negative entries (there are none),
  gathers the parameters at it — the Toeplitz weight matrix —, contracts each batch row of x with each weight row,
  and adds the bias to every row. Read at an entry, that is the specification's formula term by term.
-/
import proofs.«171036_j2173253452210_2_alg».proof.Proof.Gen.ReferenceIdeal.Read
import proofs.«171036_j2173253452210_2_alg».proof.Proof.ToeplitzSpec
import proofs.«171036_j2173253452210_2_alg».proof.Proof.IndexWords

noncomputable section

open scoped BigOperators

namespace Cert.Toeplitz.Ref

open Cert.ReferenceIdeal Cert.ReferenceIdeal.Read Idealize.ShloMosaic Idealize.ShloMosaic.ValueIdx

/-- The index matrix the reference gathers at: entry (o, k) reads back as 4095 − o + k. -/
theorem index_read (o k : Fin 4096) :
    (val_main_v14 (F := Ideal) (takeIdx (ix2 o k))).toInt.toNat = (Cert.Toeplitz.diag o k).val := by
  rw [val_main_v14_apply, val_main_v13_apply, val_main_v10_apply, val_main_v12_apply, val_main_v8_apply,
    val_main_v9_apply, val_main_c_0_apply, val_main_v11_apply, val_main_c_1_apply, val_main_v6_apply,
    val_main_v7_apply, val_main_v5_apply, val_main_v4_apply, val_main_c_apply, val_main_v1_apply,
    val_main_v0_apply, val_main_v3_apply, val_main_v2_apply]
  show (Scalar.select (IntOp.cmpi .slt (IntOp.addi (IntOp.subi 4095#32 (BitVec.ofNat 32 o.val)) (BitVec.ofNat 32 k.val)) 0#32)
      (IntOp.addi (IntOp.addi (IntOp.subi 4095#32 (BitVec.ofNat 32 o.val)) (BitVec.ofNat 32 k.val)) 8191#32)
      (IntOp.addi (IntOp.subi 4095#32 (BitVec.ofNat 32 o.val)) (BitVec.ofNat 32 k.val))).toInt.toNat = 4095 - o.val + k.val
  rw [Cert.Toeplitz.Words.diag_word o.val k.val o.isLt k.isLt]
  exact Cert.Toeplitz.Words.wrap_read ⟨4095 - o.val + k.val, by have := o.isLt; have := k.isLt; omega⟩

/-- The gathered weight matrix: entry (o, k) is parameter 4095 − o + k. -/
theorem weight_apply (p : S8191.Idx → EReal) (o k : Fin 4096) :
    val_main_v15 (F := Ideal) p (ix2 o k) = p (ix1 (Cert.Toeplitz.diag o k)) := by
  unfold val_main_v15
  show Host.gather (takeDims 8191 4096 4096 Facts₀.gather_S8191_S4096x4096x1_S4096x4096_n_0_n_n_0_2_1_wf) p
      (val_main_v14 (F := Ideal)) (ix2 o k) = _
  rw [gather_take_apply (by decide)]
  refine congrArg p (congrArg ix1 (Fin.ext ?_))
  show min (val_main_v14 (F := Ideal) (takeIdx (ix2 o k))).toInt.toNat (8191 - 1) = (Cert.Toeplitz.diag o k).val
  rw [index_read]
  have := (Cert.Toeplitz.diag o k).isLt
  omega

/-- The reference's result is the layer of its three arguments. -/
theorem result_eq (x : S8192x4096.Idx → EReal) (p : S8191.Idx → EReal) (b : S4096.Idx → EReal) :
    val_main_v19 (F := Ideal) x p b = Cert.Toeplitz.layer x p b := by
  funext i
  obtain ⟨r, o, rfl⟩ : ∃ (r : Fin 8192) (o : Fin 4096), i = ix2 r o := ⟨i 0, i 1, eq_ix2 i⟩
  rw [val_main_v19_apply, val_main_v16_apply, val_main_v18_apply, val_main_v17_apply]
  unfold Cert.Toeplitz.layer
  show (∑ k : Fin 4096, x (lidx_main_v16 (ix2 r o) k) * val_main_v15 (F := Ideal) p (ridx_main_v16 (ix2 r o) k))
      + b (idx_main_v17 (idx_main_v18 (ix2 r o)))
    = (∑ k : Fin 4096, x (ix2 r k) * p (ix1 (Cert.Toeplitz.diag o k))) + b (ix1 o)
  have hb : idx_main_v17 (idx_main_v18 (ix2 r o)) = ix1 o :=
    funext fun a => Fin.ext (by match a with | ⟨0, _⟩ => rfl)
  rw [hb]
  congr 1
  refine Finset.sum_congr rfl fun k _ => ?_
  have el : lidx_main_v16 (ix2 r o) k = ix2 r k :=
    funext fun a => Fin.ext (by match a with | ⟨0, _⟩ => rfl | ⟨1, _⟩ => rfl)
  have er : ridx_main_v16 (ix2 r o) k = ix2 o k :=
    funext fun a => Fin.ext (by match a with | ⟨0, _⟩ => rfl | ⟨1, _⟩ => rfl)
  rw [el, er, weight_apply]

end Cert.Toeplitz.Ref

end
-- ==== Proof.lean ====
/-
  A dense layer with a Toeplitz weight matrix: out (r, o) = (Σ_{k < 4096} x (r, k) · p (4095 − o + k)) + bias o,
  for x of 8192 × 4096, 8191 parameters p and 4096 biases.

  The kernel cuts each weight row out of p as one window of 4096 consecutive parameters starting at 4095 − o, and
  computes the product in 1024 × 1024 blocks, the contraction in four tiles accumulated one after the other, the bias
  added when the last tile is in. The reference gathers the weight matrix entry by entry at the index 4095 − o + k,
  contracts in one piece and adds the bias. On the extended reals the two are the same function of the arguments:
  the window's entry k is the parameter 4095 − o + k (no start is clamped, no index wraps), a change of float
  format is the identity, and a sum taken in four consecutive tiles is the whole sum — addition is commutative
  and associative there, so nothing has to be finite and the precondition is never opened.

  The three frames are the generated ones (the reference's is its generated run with the result dropped); the
  idealization rewrote nothing, so it is preserved trivially; the equality of the results is
  Proof/ResultArray.lean (the kernel's array is the layer) beside Proof/RefSide.lean (so is the reference's).
-/
import proofs.«171036_j2173253452210_2_alg».proof.Defs
import proofs.«171036_j2173253452210_2_alg».proof.Proof.Gen.Kernel
import proofs.«171036_j2173253452210_2_alg».proof.Proof.Gen.Kernel.Skeleton
import proofs.«171036_j2173253452210_2_alg».proof.Proof.Gen.Kernel.Launch
import proofs.«171036_j2173253452210_2_alg».proof.Proof.Gen.Kernel.Points
import proofs.«171036_j2173253452210_2_alg».proof.Proof.Gen.Kernel.Frame
import proofs.«171036_j2173253452210_2_alg».proof.Proof.Gen.KernelIdeal
import proofs.«171036_j2173253452210_2_alg».proof.Proof.Gen.KernelIdeal.Skeleton
import proofs.«171036_j2173253452210_2_alg».proof.Proof.Gen.KernelIdeal.Launch
import proofs.«171036_j2173253452210_2_alg».proof.Proof.Gen.KernelIdeal.Points
import proofs.«171036_j2173253452210_2_alg».proof.Proof.Gen.KernelIdeal.Frame
import proofs.«171036_j2173253452210_2_alg».proof.Proof.Gen.ReferenceIdeal
import proofs.«171036_j2173253452210_2_alg».proof.Proof.Gen.Pre_finite_inputs
import proofs.«171036_j2173253452210_2_alg».proof.Proof.Gen.KernelIdeal.Value
import proofs.«171036_j2173253452210_2_alg».proof.Proof.Gen.ReferenceIdeal.Run
import proofs.«171036_j2173253452210_2_alg».proof.Proof.Gen.ReferenceIdeal.Read
import proofs.«171036_j2173253452210_2_alg».proof.Proof.ResultArray
import proofs.«171036_j2173253452210_2_alg».proof.Proof.RefSide
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the layer of those arguments in their result arrays. -/
theorem algebraic : Cert.algebraic_KernelIdeal_ReferenceIdeal := by
  intro m ρ m' ρ' _ hagree
  refine ⟨fun c => Cert.Toeplitz.Result.result m c, Cert.Toeplitz.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Toeplitz.Ref.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
